-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x96x96 : Shape := ⟨4, ![2, 512, 96, 96]⟩
abbrev S_ : Shape := ⟨0, ![]⟩

class Facts : Prop where
  bcast_S_S2x512x96x96 : S_.BroadcastsInDim S2x512x96x96 (![] : Fin 0 → Fin S2x512x96x96.rank)
  reducesTo_S2x512x96x96_S_d0_1_2_3 : S2x512x96x96.ReducesTo [0, 1, 2, 3] S_
  h_S_ : 0 < S_.numel

variable [Facts]

def fn {F : FTy → Type} [FloatOps F] (main_arg0 : FVec F S2x512x96x96 .f32) : IVec S_ 1 :=
  let main_v0 : FVec F S2x512x96x96 .f32 := Host.absf main_arg0
  let main_cst : FVec F S_ .f32 := constant S_ .f32 0x7F800000#32
  let main_v1 : FVec F S2x512x96x96 .f32 := broadcastInDim S2x512x96x96 ![] bcast_S_S2x512x96x96 main_cst
  let main_v2 : IVec S2x512x96x96 1 := cmpf .olt main_v0 main_v1
  let main_c : IVec S_ 1 := constantI S_ 1 1#1
  let main_v3 : IVec S_ 1 := (fun x v => Host.reduce IntOp.andi x v reducesTo_S2x512x96x96_S_d0_1_2_3 h_S_) main_v2 main_c
  main_v3
-- ==== Kernel.lean ====
abbrev S2x512x96x96 : Shape := ⟨4, ![2, 512, 96, 96]⟩
abbrev S2x512x9216 : Shape := ⟨3, ![2, 512, 9216]⟩
abbrev S1x512x1536 : Shape := ⟨3, ![1, 512, 1536]⟩
abbrev S512x1536 : Shape := ⟨2, ![512, 1536]⟩
abbrev S1536 : Shape := ⟨1, ![1536]⟩
abbrev S1x1536 : Shape := ⟨2, ![1, 1536]⟩
abbrev S2x9216x9216 : Shape := ⟨3, ![2, 9216, 9216]⟩
abbrev S1x512x256 : Shape := ⟨3, ![1, 512, 256]⟩
abbrev S1x512x9216 : Shape := ⟨3, ![1, 512, 9216]⟩
abbrev S1x256x9216 : Shape := ⟨3, ![1, 256, 9216]⟩
abbrev S512x256 : Shape := ⟨2, ![512, 256]⟩
abbrev S512x9216 : Shape := ⟨2, ![512, 9216]⟩
abbrev S256x9216 : Shape := ⟨2, ![256, 9216]⟩
abbrev S256 : Shape := ⟨1, ![256]⟩
abbrev S256x1 : Shape := ⟨2, ![256, 1]⟩

abbrev nBuf : Space → Nat
  | .hbm => 4
  | .vmem => 10
  | .smem => 0
  | _ => 0

abbrev bufTy : (tb : Table) → Fin (tcTables nBuf tb) → BufTy
  | .hbm, ⟨0, _⟩ => ⟨S2x512x96x96, .f32⟩
  | .hbm, ⟨1, _⟩ => ⟨S2x512x9216, .f32⟩
  | .hbm, ⟨2, _⟩ => ⟨S2x512x9216, .bf16⟩
  | .hbm, ⟨3, _⟩ => ⟨S2x9216x9216, .f32⟩
  | .local _ .vmem, ⟨0, _⟩ => ⟨S1x512x1536, .f32⟩
  | .local _ .vmem, ⟨1, _⟩ => ⟨S1x512x1536, .f32⟩
  | .local _ .vmem, ⟨2, _⟩ => ⟨S1x512x1536, .bf16⟩
  | .local _ .vmem, ⟨3, _⟩ => ⟨S1x512x1536, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x9216, .bf16⟩
  | .local _ .vmem, ⟨7, _⟩ => ⟨S1x512x9216, .bf16⟩
  | .local _ .vmem, ⟨8, _⟩ => ⟨S1x256x9216, .f32⟩
  | .local _ .vmem, ⟨9, _⟩ => ⟨S1x256x9216, .f32⟩
  | _, _ => ⟨S2x512x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 36], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x9216 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x9216 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S2x512x96x96_S2x512x9216 : S2x512x96x96.ShapeCasts S2x512x9216
  inb_S1x512x1536_S1x512x1536_0_0_0 : ∀ a, (![0, 0, 0] : Fin 3 → Nat) a + S1x512x1536.size a ≤ S1x512x1536.size a
  h_S1x512x1536 : 0 < S1x512x1536.numel
  shapeCasts_S1x512x1536_S512x1536 : S1x512x1536.ShapeCasts S512x1536
  reduces_S512x1536_S1536 : S512x1536.Reduces [0] S1536
  shapeCasts_S1536_S1x1536 : S1536.ShapeCasts S1x1536
  broadcasts_S1x1536_S512x1536 : S1x1536.Broadcasts S512x1536
  bitsLt_bf16_f32 : FTy.bits .bf16 < FTy.bits .f32
  shapeCasts_S512x1536_S1x512x1536 : S512x1536.ShapeCasts S1x512x1536
  packedbf16_S1x512x1536_S1x512x1536_0_0_0 : (Rect.unit (s := S1x512x1536) ![0, 0, 0] S1x512x1536.size inb_S1x512x1536_S1x512x1536_0_0_0).PackedRows (EltTy.packing .bf16)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x512x9216_S1x512x9216_0_0_0 : ∀ a, (![0, 0, 0] : Fin 3 → Nat) a + S1x512x9216.size a ≤ S1x512x9216.size a
  h_S1x512x9216 : 0 < S1x512x9216.numel
  shapeCasts_S1x512x9216_S512x9216 : S1x512x9216.ShapeCasts S512x9216
  reduces_S256x9216_S256 : S256x9216.Reduces [1] S256
  shapeCasts_S256_S256x1 : S256.ShapeCasts S256x1
  broadcasts_S256x1_S256x9216 : S256x1.Broadcasts S256x9216
  inb_S1x256x9216_S1x256x9216_0_0_0 : ∀ a, (![0, 0, 0] : Fin 3 → Nat) a + S1x256x9216.size a ≤ S1x256x9216.size a
  h_S1x256x9216 : 0 < S1x256x9216.numel
  shapeCasts_S1x256x9216_S256x9216 : S1x256x9216.ShapeCasts S256x9216
  shapeCasts_S256x9216_S1x256x9216 : S256x9216.ShapeCasts S1x256x9216
  dot_S512x256_S512x9216_S256x9216_0_0_1_1_n_n_wf : DotDims.WF S512x256 S512x9216 S256x9216 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1536.size a ≤ S2x512x9216.size a
  hwx0_0 : ∀ i : grid0.Coords, EltTy.bits .f32 = 32 ∨ (Rect.block (s := S2x512x9216) S1x512x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1536.size a ≤ S2x512x9216.size a
  hwx0_1 : ∀ i : grid0.Coords, EltTy.bits .bf16 = 32 ∨ (Rect.block (s := S2x512x9216) S1x512x1536.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S2x512x9216.size a
  hwx1_0 : ∀ i : grid1.Coords, EltTy.bits .bf16 = 32 ∨ (Rect.block (s := S2x512x9216) S1x512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x9216.size a ≤ S2x512x9216.size a
  hwx1_1 : ∀ i : grid1.Coords, EltTy.bits .bf16 = 32 ∨ (Rect.block (s := S2x512x9216) S1x512x9216.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x9216.size a ≤ S2x9216x9216.size a
  hwx1_2 : ∀ i : grid1.Coords, EltTy.bits .f32 = 32 ∨ (Rect.block (s := S2x9216x9216) S1x256x9216.size (cc1_transform_2 i) (hinb1_2 i)).WholeWords (EltTy.packing .f32)

variable [Facts₀]

def dot_S512x256_S512x9216_S256x9216_0_0_1_1_n_n : DotDims S512x256 S512x9216 S256x9216 where
  lhsContracting := [0]
  rhsContracting := [0]
  lhsNonContracting := [1]
  rhsNonContracting := [1]
  lhsBatch := []
  rhsBatch := []
  wf := dot_S512x256_S512x9216_S256x9216_0_0_1_1_n_n_wf

abbrev win0_0 : Pipeline.Window sig grid0 :=
  Pipeline.Window.ofSpec (Memref.whole main_v0) S1x512x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x512x9216.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256x9216.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x512x96x96 : Shape := ⟨4, ![2, 512, 96, 96]⟩
abbrev S_ : Shape := ⟨0, ![]⟩
abbrev S2x96x96 : Shape := ⟨3, ![2, 96, 96]⟩
abbrev S2x1x96x96 : Shape := ⟨4, ![2, 1, 96, 96]⟩
abbrev S2x512x9216 : Shape := ⟨3, ![2, 512, 9216]⟩
abbrev S2x9216x9216 : Shape := ⟨3, ![2, 9216, 9216]⟩
abbrev S2x9216 : Shape := ⟨2, ![2, 9216]⟩
abbrev S2x9216x1 : Shape := ⟨3, ![2, 9216, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x512x96x96, .f32⟩
  | .hbm, ⟨1, _⟩ => ⟨S2x512x96x96, .f32⟩
  | .hbm, ⟨2, _⟩ => ⟨S_, .f32⟩
  | .hbm, ⟨3, _⟩ => ⟨S2x96x96, .f32⟩
  | .hbm, ⟨4, _⟩ => ⟨S2x1x96x96, .f32⟩
  | .hbm, ⟨5, _⟩ => ⟨S2x1x96x96, .f32⟩
  | .hbm, ⟨6, _⟩ => ⟨S_, .f32⟩
  | .hbm, ⟨7, _⟩ => ⟨S2x1x96x96, .f32⟩
  | .hbm, ⟨8, _⟩ => ⟨S2x1x96x96, .f32⟩
  | .hbm, ⟨9, _⟩ => ⟨S2x512x96x96, .f32⟩
  | .hbm, ⟨10, _⟩ => ⟨S2x512x96x96, .f32⟩
  | .hbm, ⟨11, _⟩ => ⟨S2x512x9216, .f32⟩
  | .hbm, ⟨12, _⟩ => ⟨S2x9216x9216, .f32⟩
  | .hbm, ⟨13, _⟩ => ⟨S2x9216x9216, .f32⟩
  | .hbm, ⟨14, _⟩ => ⟨S_, .f32⟩
  | .hbm, ⟨15, _⟩ => ⟨S2x9216, .f32⟩
  | .hbm, ⟨16, _⟩ => ⟨S2x9216x1, .f32⟩
  | .hbm, ⟨17, _⟩ => ⟨S_, .f32⟩
  | .hbm, ⟨18, _⟩ => ⟨S2x9216x1, .f32⟩
  | .hbm, ⟨19, _⟩ => ⟨S2x9216x1, .f32⟩
  | .hbm, ⟨20, _⟩ => ⟨S2x9216x9216, .f32⟩
  | .hbm, ⟨21, _⟩ => ⟨S2x9216x9216, .f32⟩
  | _, _ => ⟨S2x512x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  reducesTo_S2x512x96x96_S2x96x96_d1 : S2x512x96x96.ReducesTo [1] S2x96x96
  h_S_ : 0 < S_.numel
  bcast_S2x96x96_S2x1x96x96_0_2_3 : S2x96x96.BroadcastsInDim S2x1x96x96 (![0, 2, 3] : Fin 3 → Fin S2x1x96x96.rank)
  bcast_S_S2x1x96x96 : S_.BroadcastsInDim S2x1x96x96 (![] : Fin 0 → Fin S2x1x96x96.rank)
  bcast_S2x1x96x96_S2x512x96x96_0_1_2_3 : S2x1x96x96.BroadcastsInDim S2x512x96x96 (![0, 1, 2, 3] : Fin 4 → Fin S2x512x96x96.rank)
  shapeCasts_S2x512x96x96_S2x512x9216 : S2x512x96x96.ShapeCasts S2x512x9216
  reducesTo_S2x9216x9216_S2x9216_d2 : S2x9216x9216.ReducesTo [2] S2x9216
  bcast_S2x9216_S2x9216x1_0_1 : S2x9216.BroadcastsInDim S2x9216x1 (![0, 1] : Fin 2 → Fin S2x9216x1.rank)
  bcast_S_S2x9216x1 : S_.BroadcastsInDim S2x9216x1 (![] : Fin 0 → Fin S2x9216x1.rank)
  bcast_S2x9216x1_S2x9216x9216_0_1_2 : S2x9216x1.BroadcastsInDim S2x9216x9216 (![0, 1, 2] : Fin 3 → Fin S2x9216x9216.rank)
  dot_S2x512x9216_S2x512x9216_S2x9216x9216_1_1_2_2_0_0_wf : DotDims.WF S2x512x9216 S2x512x9216 S2x9216x9216 [1] [1] [2] [2] [0] [0]

variable [Facts₀]

def dot_S2x512x9216_S2x512x9216_S2x9216x9216_1_1_2_2_0_0 : DotDims S2x512x9216 S2x512x9216 S2x9216x9216 where
  lhsContracting := [1]
  rhsContracting := [1]
  lhsNonContracting := [2]
  rhsNonContracting := [2]
  lhsBatch := [0]
  rhsBatch := [0]
  wf := dot_S2x512x9216_S2x512x9216_S2x9216x9216_1_1_2_2_0_0_wf

class Facts : Prop extends Facts₀ where

variable [Facts]
-- ==== Proof.Kernel.Region0.lean ====
/-
  The first call: column normalization. Its grid has 2 × 6 points; at point (b, s) the body reads the 512 × 1536 block
  of batch b whose pixels are 1536 s … 1536 s + 1535, and writes the block of the same position of the normalized keys.
  Here: what the body leaves in the output block as a function of the input block (one store of the whole block), the
  body's run on the staging buffers, and the bookkeeping the pipeline asks for at every grid point — for any contents
  `V` the buffers hold when the call is entered.
-/
import proofs.«102274_j46385646797197_1_alg».proof.Proof.Gen.Kernel.Launch
import proofs.«102274_j46385646797197_1_alg».proof.Proof.Gen.Kernel.Skeleton
import proofs.«102274_j46385646797197_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's block whenever the body runs, whether it was fetched at this point
    or kept from the one before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1 × 512 × 1536 block: the one rectangle the body loads and stores through. -/
abbrev r0 : Rect S1x512x1536 := Rect.unit (s := S1x512x1536) ![0, 0, 0] S1x512x1536.size inb_S1x512x1536_S1x512x1536_0_0_0

/-- The output block after the body: the normalized columns of the input block, stored whole. -/
def out0_1 (x0 : Vec F S1x512x1536 .f32) : Vec F S1x512x1536 .bf16 :=
  View.canon [⟨r0, k0_pay1 (View.ld x0 r0)⟩]

/-- The one store covers the block. -/
theorem cover0_1 (p0 : Vec F S1x512x1536 .bf16) (y : S1x512x1536.Idx) :
    ∃ pc ∈ ([⟨r0, p0⟩] : List (View.Piece (Elt F) S1x512x1536 .bf16)), y ∈ pc.1.set :=
  View.cover_of_tiled [⟨r0, p0⟩] S1x512x1536.size (by rfl) y

set_option maxHeartbeats 1000000 in
/-- The body on whole staging buffers, the input's at contents `x0` and the output's at anything, ends with the
    input's unchanged and the output's at `out0_1 x0`. -/
theorem sound_kernel0 (c : Dev nD) (E : Set ℕ) (i : grid0.Coords) (arg2 : Memref sig .tc .vmem S1x512x1536 .f32) (harg2 : arg2.IsWhole)
    (arg3 : Memref sig .tc .vmem S1x512x1536 .bf16) (harg3 : arg3.IsWhole)
    (x0 : Vec F S1x512x1536 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__l2norm_kernel i arg2 harg2 arg3 harg3) K := by
  simp only [cc0__l2norm_kernel_eq_skeleton]; unfold cc0__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The pipeline's proof data on core `c`: the arrays as the call finds them; after the body at point `t` the input's
    buffer at its block and the output's at the normalized block; nothing else held, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's obligation on the body, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1.lean ====
/-
  The second call: inner products and row normalization. Its grid has 2 × 36 points; at point (b, s) the body reads
  the 512 × 256 block of batch b's normalized keys whose pixels are 256 s … 256 s + 255 (the rows of the output tile),
  and ALL 512 × 9216 normalized keys of batch b, and writes the 256 × 9216 tile of rows 256 s … of batch b's affinity
  matrix. Both input windows look at one array, the normalized keys; each holds half of the right to read it.
  Here: what the body leaves in the output tile as a function of the two input blocks (one store of the whole tile), the
  body's run on the staging buffers, and the bookkeeping the pipeline asks for at every grid point — for any contents
  `V` the buffers hold when the call is entered.
-/
import proofs.«102274_j46385646797197_1_alg».proof.Proof.Gen.Kernel.Launch
import proofs.«102274_j46385646797197_1_alg».proof.Proof.Gen.Kernel.Skeleton
import proofs.«102274_j46385646797197_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the point's block whenever the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- So does the whole batch's: it is fetched at the first point of a batch only, and its block index does not move
    within the batch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole blocks: the rectangles the body loads and stores through. -/
abbrev rq : Rect S1x512x256 := Rect.unit (s := S1x512x256) ![0, 0, 0] S1x512x256.size inb_S1x512x256_S1x512x256_0_0_0
abbrev rk : Rect S1x512x9216 := Rect.unit (s := S1x512x9216) ![0, 0, 0] S1x512x9216.size inb_S1x512x9216_S1x512x9216_0_0_0
abbrev ro : Rect S1x256x9216 := Rect.unit (s := S1x256x9216) ![0, 0, 0] S1x256x9216.size inb_S1x256x9216_S1x256x9216_0_0_0

/-- The output tile after the body: the row-normalized inner products of the row block with all the keys, stored whole. -/
def out1_2 (x0 : Vec F S1x512x256 .bf16) (x1 : Vec F S1x512x9216 .bf16) : Vec F S1x256x9216 .f32 :=
  View.canon [⟨ro, k1_pay1 (View.ld x0 rq) (View.ld x1 rk)⟩]

/-- The one store covers the tile. -/
theorem cover1_2 (p0 : Vec F S1x256x9216 .f32) (y : S1x256x9216.Idx) :
    ∃ pc ∈ ([⟨ro, p0⟩] : List (View.Piece (Elt F) S1x256x9216 .f32)), y ∈ pc.1.set :=
  View.cover_of_tiled [⟨ro, p0⟩] S1x256x9216.size (by rfl) y

set_option maxHeartbeats 1000000 in
/-- The body on whole staging buffers, the inputs' at contents `x0`, `x1` and the output's at anything, ends with
    the inputs' unchanged and the output's at `out1_2 x0 x1`. -/
theorem sound_kernel1 (c : Dev nD) (E : Set ℕ) (i : grid1.Coords) (arg2 : Memref sig .tc .vmem S1x512x256 .bf16) (harg2 : arg2.IsWhole)
    (arg3 : Memref sig .tc .vmem S1x512x9216 .bf16) (harg3 : arg3.IsWhole)
    (arg4 : Memref sig .tc .vmem S1x256x9216 .f32) (harg4 : arg4.IsWhole)
    (x0 : Vec F S1x512x256 .bf16) (x1 : Vec F S1x512x9216 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__affinity_kernel i arg2 harg2 arg3 harg3 arg4 harg4) K := by
  simp only [cc1__affinity_kernel_eq_skeleton]; unfold cc1__affinity_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the call finds them; after the body at point `t` each
    input's buffer at its block and the output's at the tile; the two inputs each hold half of the keys' array;
    nothing else held, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The whole program as three items — the reshape of the input to batch × channel × pixel, the normalization call, the
  affinity call — run from the launch to the return. Between items every buffer outside the calls' scratch space is
  held at known contents: the launch contents; those after the reshape; after the first call the normalized keys at
  what its write-backs leave; after the second the affinity matrix likewise. The second call reads the keys through
  two windows: at its entry the right to the keys' array is split in two halves, one per window, and at its exit the
  halves — both still at the contents found — are joined again. The run ends with the argument as launched and the
  result at what the second call's write-backs leave.
-/
import proofs.«102274_j46385646797197_1_alg».proof.Proof.Kernel.Region0
import proofs.«102274_j46385646797197_1_alg».proof.Proof.Kernel.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m ((c : Dev nD), b)
/-- After the reshape (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- What the second call leaves in the result array. -/
abbrev result (c : Dev nD) : Buf (Elt F) ((c : Thread nD τ).loc main_v2) := (dat1 (V2 m) c).arrAt 2 cfg1.N
/-- After the second call: the result array at what the pipeline leaves, every other buffer as entered. -/
def W3 (c : Dev nD) : Valuation τ sig (Elt F) := Function.update (W2 m c) (Proc.devRef .tc main_v2) (result m c)
abbrev V3 : (c : Dev nD) → (b : Ref sig .tc) → Buf (Elt F) ((c : Thread nD τ).loc b) := fun c b => W3 m c b
theorem W3_result (c : Dev nD) : W3 m c (Proc.devRef .tc main_v2) = result m c := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-- The argument ends as launched: neither the reshape nor a call writes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

/-! ## The proof data family and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- Beside the buffers: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The second call's arrays: one array behind two windows -/

/-- The buffers behind the second call's arrays are the keys' and the result's. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v2) ↦{fullShare} V main_v2)) := by
  unfold Pipeline.arrBufs
  exact bigSep_eq_bigSepL_of_eq [main_v1, main_v2] (by decide) (by decide) _

/-- The second call's arrays, window by window: the keys at the left half, the keys at the right half, the result whole. -/
theorem arrays1_eq (c : Dev nD) (V : (c : Dev nD) → (b : Ref sig .tc) → Buf (Elt F) ((c : Thread nD τ).loc b))
    (A : (w : Fin cfg1.W) → Buf (Elt F) ((cfg1.win w).arr.view.loc (c : Thread nD τ))) :
    ((dat1 V c).arrays A : sProp 𝕄)
      = iprop((((c : Thread nD τ).loc main_v1) ↦{fullShare.left} A 0) ∗ (((c : Thread nD τ).loc main_v1) ↦{fullShare.right} A 1)
          ∗ (((c : Thread nD τ).loc main_v2) ↦{fullShare} A 2)) := by
  unfold Dat.arrays
  rw [bigSep_W1, (arr_whole1 0).set_eq_univ, (arr_whole1 2).set_eq_univ]
  rfl

/-- At the second call's entry the buffers held whole make its arrays — the right to the keys split between the two
    windows that read them — beside the buffers it does not touch. -/
theorem entry1 (c : Dev nD) :
    (unscopedBufs c (V2 m c) : sProp 𝕄)
      ⊢ iprop((dat1 (V2 m) c).arrays ((dat1 (V2 m) c).arrAt · 0) ∗ Pipeline.unscopedRest spec1 c (V2 m c)) := by
  refine (Entails.of_eq (Pipeline.unscopedBufs_split₀ cfgs 1 winFacts₀1.arr_unscoped c (V2 m c))).trans ?_
  show iprop(Pipeline.arrBufs spec1 c (V2 m c) ∗ Pipeline.unscopedRest spec1 c (V2 m c)) ⊢ _
  rw [arrBufs1_eq, arrays1_eq]
  iintro ⟨⟨Hk, Hr⟩, Hrest⟩
  ihave Hs := (pointsTo_share (PosShare.mem_left_op_right fullShare)).1 $$ Hk
  icases Hs with ⟨Hl, Hrr⟩
  isplitr [Hrest]
  · isplitl [Hl]; · iexact Hl
    isplitl [Hrr]; · iexact Hrr
    iexact Hr
  · iexact Hrest

/-- At its exit the two halves of the keys, both at the contents found, are joined again, and with the result at what
    the write-backs leave and the untouched buffers they are all the buffers at the contents after the call. -/
theorem exit1 (c : Dev nD) :
    iprop((dat1 (V2 m) c).arrays ((dat1 (V2 m) c).arrAt · cfg1.N) ∗ Pipeline.unscopedRest spec1 c (V2 m c))
      ⊢ (unscopedBufs c (V3 m c) : sProp 𝕄) := by
  refine BI.Entails.trans ?_ (Entails.of_eq (Pipeline.unscopedBufs_split₀ cfgs 1 winFacts₀1.arr_unscoped c (V3 m c)).symm)
  show _ ⊢ iprop(Pipeline.arrBufs spec1 c (V3 m c) ∗ Pipeline.unscopedRest spec1 c (V3 m c))
  rw [arrBufs1_eq, arrays1_eq, unscopedRest1_eq, unscopedRest1_eq]
  have h0 : (dat1 (V2 m) c).arrAt 0 cfg1.N = V2 m c main_v1 := ((dat1 (V2 m) c).arrAt_in 0 rfl _).trans (A_eq1 (V2 m) c 0)
  have h1 : (dat1 (V2 m) c).arrAt 1 cfg1.N = V2 m c main_v1 := ((dat1 (V2 m) c).arrAt_in 1 rfl _).trans (A_eq1 (V2 m) c 1)
  have e1 : V3 m c main_v1 = V2 m c main_v1 := W3_of_ne m c main_v1 (by decide)
  have e2 : V3 m c main_v2 = (dat1 (V2 m) c).arrAt 2 cfg1.N := W3_result m c
  have e3 : V3 m c main_arg0 = V2 m c main_arg0 := W3_of_ne m c main_arg0 (by decide)
  have e4 : V3 m c main_v0 = V2 m c main_v0 := W3_of_ne m c main_v0 (by decide)
  rw [h0, h1, e1, e2, e3, e4]
  iintro ⟨⟨Hl, Hrr, Hr⟩, Hrest⟩
  isplitr [Hrest]
  · isplitr [Hr]
    · iapply (pointsTo_share (PosShare.mem_left_op_right fullShare)).2
      isplitl [Hl] <;> iassumption
    · iexact Hr
  · iexact Hrest

/-! ## The calls as segments -/

set_option backward.isDefEq.respectTransparency.types false in
/-- The normalization call: entered from every buffer at the contents after the reshape, left at those after it. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The affinity call: entered from every buffer at the contents after the first call, left at those after it. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄)
        ⊢ iprop((pdats m 1 c).arrays ((pdats m 1 c).arrAt · 0) ∗ Pipeline.unscopedRest spec1 c (V2 m c)) := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs c (V3 m c) : sProp 𝕄) := exit1 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    ends with the result array at what the second call's write-backs leave and the argument as launched. -/
theorem run : θ_run defs (onTc (τ := τ) (main (F := F))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_result m c),
       (h c _ (mem_uc main_arg0 (by decide))).trans (W3_main_arg0 m c)⟩)

/-- The frame: the program runs to the end, faults nowhere, and leaves its argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run m ρ)

end Cert.Kernel.Hand

end
-- ==== Proof.KernelIdeal.Region0.lean ====
/-
  The first call: column normalization. Its grid has 2 × 6 points; at point (b, s) the body reads the 512 × 1536 block
  of batch b whose pixels are 1536 s … 1536 s + 1535, and writes the block of the same position of the normalized keys.
  Here: what the body leaves in the output block as a function of the input block (one store of the whole block), the
  body's run on the staging buffers, and the bookkeeping the pipeline asks for at every grid point — for any contents
  `V` the buffers hold when the call is entered.
-/
import proofs.«102274_j46385646797197_1_alg».proof.Proof.Gen.KernelIdeal.Launch
import proofs.«102274_j46385646797197_1_alg».proof.Proof.Gen.KernelIdeal.Skeleton
import proofs.«102274_j46385646797197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's block whenever the body runs, whether it was fetched at this point
    or kept from the one before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1 × 512 × 1536 block: the one rectangle the body loads and stores through. -/
abbrev r0 : Rect S1x512x1536 := Rect.unit (s := S1x512x1536) ![0, 0, 0] S1x512x1536.size inb_S1x512x1536_S1x512x1536_0_0_0

/-- The output block after the body: the normalized columns of the input block, stored whole. -/
def out0_1 (x0 : Vec F S1x512x1536 .f32) : Vec F S1x512x1536 .bf16 :=
  View.canon [⟨r0, k0_pay1 (View.ld x0 r0)⟩]

/-- The one store covers the block. -/
theorem cover0_1 (p0 : Vec F S1x512x1536 .bf16) (y : S1x512x1536.Idx) :
    ∃ pc ∈ ([⟨r0, p0⟩] : List (View.Piece (Elt F) S1x512x1536 .bf16)), y ∈ pc.1.set :=
  View.cover_of_tiled [⟨r0, p0⟩] S1x512x1536.size (by rfl) y

set_option maxHeartbeats 1000000 in
/-- The body on whole staging buffers, the input's at contents `x0` and the output's at anything, ends with the
    input's unchanged and the output's at `out0_1 x0`. -/
theorem sound_kernel0 (c : Dev nD) (E : Set ℕ) (i : grid0.Coords) (arg2 : Memref sig .tc .vmem S1x512x1536 .f32) (harg2 : arg2.IsWhole)
    (arg3 : Memref sig .tc .vmem S1x512x1536 .bf16) (harg3 : arg3.IsWhole)
    (x0 : Vec F S1x512x1536 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__l2norm_kernel i arg2 harg2 arg3 harg3) K := by
  simp only [cc0__l2norm_kernel_eq_skeleton]; unfold cc0__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The pipeline's proof data on core `c`: the arrays as the call finds them; after the body at point `t` the input's
    buffer at its block and the output's at the normalized block; nothing else held, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's obligation on the body, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1.lean ====
/-
  The second call: inner products and row normalization. Its grid has 2 × 36 points; at point (b, s) the body reads
  the 512 × 256 block of batch b's normalized keys whose pixels are 256 s … 256 s + 255 (the rows of the output tile),
  and ALL 512 × 9216 normalized keys of batch b, and writes the 256 × 9216 tile of rows 256 s … of batch b's affinity
  matrix. Both input windows look at one array, the normalized keys; each holds half of the right to read it.
  Here: what the body leaves in the output tile as a function of the two input blocks (one store of the whole tile), the
  body's run on the staging buffers, and the bookkeeping the pipeline asks for at every grid point — for any contents
  `V` the buffers hold when the call is entered.
-/
import proofs.«102274_j46385646797197_1_alg».proof.Proof.Gen.KernelIdeal.Launch
import proofs.«102274_j46385646797197_1_alg».proof.Proof.Gen.KernelIdeal.Skeleton
import proofs.«102274_j46385646797197_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the point's block whenever the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- So does the whole batch's: it is fetched at the first point of a batch only, and its block index does not move
    within the batch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole blocks: the rectangles the body loads and stores through. -/
abbrev rq : Rect S1x512x256 := Rect.unit (s := S1x512x256) ![0, 0, 0] S1x512x256.size inb_S1x512x256_S1x512x256_0_0_0
abbrev rk : Rect S1x512x9216 := Rect.unit (s := S1x512x9216) ![0, 0, 0] S1x512x9216.size inb_S1x512x9216_S1x512x9216_0_0_0
abbrev ro : Rect S1x256x9216 := Rect.unit (s := S1x256x9216) ![0, 0, 0] S1x256x9216.size inb_S1x256x9216_S1x256x9216_0_0_0

/-- The output tile after the body: the row-normalized inner products of the row block with all the keys, stored whole. -/
def out1_2 (x0 : Vec F S1x512x256 .bf16) (x1 : Vec F S1x512x9216 .bf16) : Vec F S1x256x9216 .f32 :=
  View.canon [⟨ro, k1_pay1 (View.ld x0 rq) (View.ld x1 rk)⟩]

/-- The one store covers the tile. -/
theorem cover1_2 (p0 : Vec F S1x256x9216 .f32) (y : S1x256x9216.Idx) :
    ∃ pc ∈ ([⟨ro, p0⟩] : List (View.Piece (Elt F) S1x256x9216 .f32)), y ∈ pc.1.set :=
  View.cover_of_tiled [⟨ro, p0⟩] S1x256x9216.size (by rfl) y

set_option maxHeartbeats 1000000 in
/-- The body on whole staging buffers, the inputs' at contents `x0`, `x1` and the output's at anything, ends with
    the inputs' unchanged and the output's at `out1_2 x0 x1`. -/
theorem sound_kernel1 (c : Dev nD) (E : Set ℕ) (i : grid1.Coords) (arg2 : Memref sig .tc .vmem S1x512x256 .bf16) (harg2 : arg2.IsWhole)
    (arg3 : Memref sig .tc .vmem S1x512x9216 .bf16) (harg3 : arg3.IsWhole)
    (arg4 : Memref sig .tc .vmem S1x256x9216 .f32) (harg4 : arg4.IsWhole)
    (x0 : Vec F S1x512x256 .bf16) (x1 : Vec F S1x512x9216 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__affinity_kernel i arg2 harg2 arg3 harg3 arg4 harg4) K := by
  simp only [cc1__affinity_kernel_eq_skeleton]; unfold cc1__affinity_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the call finds them; after the body at point `t` each
    input's buffer at its block and the output's at the tile; the two inputs each hold half of the keys' array;
    nothing else held, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The whole program as three items — the reshape of the input to batch × channel × pixel, the normalization call, the
  affinity call — run from the launch to the return. Between items every buffer outside the calls' scratch space is
  held at known contents: the launch contents; those after the reshape; after the first call the normalized keys at
  what its write-backs leave; after the second the affinity matrix likewise. The second call reads the keys through
  two windows: at its entry the right to the keys' array is split in two halves, one per window, and at its exit the
  halves — both still at the contents found — are joined again. The run ends with the argument as launched and the
  result at what the second call's write-backs leave.
-/
import proofs.«102274_j46385646797197_1_alg».proof.Proof.KernelIdeal.Region0
import proofs.«102274_j46385646797197_1_alg».proof.Proof.KernelIdeal.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m ((c : Dev nD), b)
/-- After the reshape (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- What the second call leaves in the result array. -/
abbrev result (c : Dev nD) : Buf (Elt F) ((c : Thread nD τ).loc main_v2) := (dat1 (V2 m) c).arrAt 2 cfg1.N
/-- After the second call: the result array at what the pipeline leaves, every other buffer as entered. -/
def W3 (c : Dev nD) : Valuation τ sig (Elt F) := Function.update (W2 m c) (Proc.devRef .tc main_v2) (result m c)
abbrev V3 : (c : Dev nD) → (b : Ref sig .tc) → Buf (Elt F) ((c : Thread nD τ).loc b) := fun c b => W3 m c b
theorem W3_result (c : Dev nD) : W3 m c (Proc.devRef .tc main_v2) = result m c := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-- The argument ends as launched: neither the reshape nor a call writes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

/-! ## The proof data family and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- Beside the buffers: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The second call's arrays: one array behind two windows -/

/-- The buffers behind the second call's arrays are the keys' and the result's. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v2) ↦{fullShare} V main_v2)) := by
  unfold Pipeline.arrBufs
  exact bigSep_eq_bigSepL_of_eq [main_v1, main_v2] (by decide) (by decide) _

/-- The second call's arrays, window by window: the keys at the left half, the keys at the right half, the result whole. -/
theorem arrays1_eq (c : Dev nD) (V : (c : Dev nD) → (b : Ref sig .tc) → Buf (Elt F) ((c : Thread nD τ).loc b))
    (A : (w : Fin cfg1.W) → Buf (Elt F) ((cfg1.win w).arr.view.loc (c : Thread nD τ))) :
    ((dat1 V c).arrays A : sProp 𝕄)
      = iprop((((c : Thread nD τ).loc main_v1) ↦{fullShare.left} A 0) ∗ (((c : Thread nD τ).loc main_v1) ↦{fullShare.right} A 1)
          ∗ (((c : Thread nD τ).loc main_v2) ↦{fullShare} A 2)) := by
  unfold Dat.arrays
  rw [bigSep_W1, (arr_whole1 0).set_eq_univ, (arr_whole1 2).set_eq_univ]
  rfl

/-- At the second call's entry the buffers held whole make its arrays — the right to the keys split between the two
    windows that read them — beside the buffers it does not touch. -/
theorem entry1 (c : Dev nD) :
    (unscopedBufs c (V2 m c) : sProp 𝕄)
      ⊢ iprop((dat1 (V2 m) c).arrays ((dat1 (V2 m) c).arrAt · 0) ∗ Pipeline.unscopedRest spec1 c (V2 m c)) := by
  refine (Entails.of_eq (Pipeline.unscopedBufs_split₀ cfgs 1 winFacts₀1.arr_unscoped c (V2 m c))).trans ?_
  show iprop(Pipeline.arrBufs spec1 c (V2 m c) ∗ Pipeline.unscopedRest spec1 c (V2 m c)) ⊢ _
  rw [arrBufs1_eq, arrays1_eq]
  iintro ⟨⟨Hk, Hr⟩, Hrest⟩
  ihave Hs := (pointsTo_share (PosShare.mem_left_op_right fullShare)).1 $$ Hk
  icases Hs with ⟨Hl, Hrr⟩
  isplitr [Hrest]
  · isplitl [Hl]; · iexact Hl
    isplitl [Hrr]; · iexact Hrr
    iexact Hr
  · iexact Hrest

/-- At its exit the two halves of the keys, both at the contents found, are joined again, and with the result at what
    the write-backs leave and the untouched buffers they are all the buffers at the contents after the call. -/
theorem exit1 (c : Dev nD) :
    iprop((dat1 (V2 m) c).arrays ((dat1 (V2 m) c).arrAt · cfg1.N) ∗ Pipeline.unscopedRest spec1 c (V2 m c))
      ⊢ (unscopedBufs c (V3 m c) : sProp 𝕄) := by
  refine BI.Entails.trans ?_ (Entails.of_eq (Pipeline.unscopedBufs_split₀ cfgs 1 winFacts₀1.arr_unscoped c (V3 m c)).symm)
  show _ ⊢ iprop(Pipeline.arrBufs spec1 c (V3 m c) ∗ Pipeline.unscopedRest spec1 c (V3 m c))
  rw [arrBufs1_eq, arrays1_eq, unscopedRest1_eq, unscopedRest1_eq]
  have h0 : (dat1 (V2 m) c).arrAt 0 cfg1.N = V2 m c main_v1 := ((dat1 (V2 m) c).arrAt_in 0 rfl _).trans (A_eq1 (V2 m) c 0)
  have h1 : (dat1 (V2 m) c).arrAt 1 cfg1.N = V2 m c main_v1 := ((dat1 (V2 m) c).arrAt_in 1 rfl _).trans (A_eq1 (V2 m) c 1)
  have e1 : V3 m c main_v1 = V2 m c main_v1 := W3_of_ne m c main_v1 (by decide)
  have e2 : V3 m c main_v2 = (dat1 (V2 m) c).arrAt 2 cfg1.N := W3_result m c
  have e3 : V3 m c main_arg0 = V2 m c main_arg0 := W3_of_ne m c main_arg0 (by decide)
  have e4 : V3 m c main_v0 = V2 m c main_v0 := W3_of_ne m c main_v0 (by decide)
  rw [h0, h1, e1, e2, e3, e4]
  iintro ⟨⟨Hl, Hrr, Hr⟩, Hrest⟩
  isplitr [Hrest]
  · isplitr [Hr]
    · iapply (pointsTo_share (PosShare.mem_left_op_right fullShare)).2
      isplitl [Hl] <;> iassumption
    · iexact Hr
  · iexact Hrest

/-! ## The calls as segments -/

set_option backward.isDefEq.respectTransparency.types false in
/-- The normalization call: entered from every buffer at the contents after the reshape, left at those after it. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The affinity call: entered from every buffer at the contents after the first call, left at those after it. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄)
        ⊢ iprop((pdats m 1 c).arrays ((pdats m 1 c).arrAt · 0) ∗ Pipeline.unscopedRest spec1 c (V2 m c)) := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs c (V3 m c) : sProp 𝕄) := exit1 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    ends with the result array at what the second call's write-backs leave and the argument as launched. -/
theorem run : θ_run defs (onTc (τ := τ) (main (F := F))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_result m c),
       (h c _ (mem_uc main_arg0 (by decide))).trans (W3_main_arg0 m c)⟩)

/-- The frame: the program runs to the end, faults nowhere, and leaves its argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run m ρ)

end Cert.KernelIdeal.Hand

end
-- ==== Proof.Spec.lean ====
/-
  The function both programs compute, over the extended reals.

  A key array `y` has one column of 512 channel values per batch `b` and pixel `n` (9216 pixels: the 96 × 96 image
  flattened row by row). Each column is divided by its Euclidean length, the length clamped below by a small positive
  constant (`normalize`). The affinity of pixels `i` and `j` of one batch is the inner product of their normalized
  columns (`gram`); each row `i` of that matrix is divided by the sum of the absolute values of its entries, clamped
  below by the same constant (`affinity`).
-/
import Idealize.ShloMosaic.PureOps.Ideal
import Idealize.ShloMosaic.PureOps.Ideal.Laws
import Idealize.ShloMosaic.Lib.ValueIdx

noncomputable section

namespace Cert.SelfAffinity

open Idealize.ShloMosaic Idealize.ShloMosaic.ValueIdx

/-- Keys: batch × channel × pixel. -/
abbrev SKey : Shape := ⟨3, ![2, 512, 9216]⟩
/-- Affinities: batch × pixel × pixel. -/
abbrev SSim : Shape := ⟨3, ![2, 9216, 9216]⟩

/-- The lower clamp of both normalizations: the single-precision number nearest to 10⁻¹², as its exact binary value. -/
def clamp : EReal := Ideal.ofBits .f32 0x2B8CBCCC#32

/-- The sum over the channels of the squares of column `(b, n)`. -/
def sqNorm (y : SKey.Idx → EReal) (b : Fin 2) (n : Fin 9216) : EReal :=
  ∑ c : Fin 512, y (ix3 b c n) * y (ix3 b c n)

/-- Entry `(b, c, n)` divided by the clamped length of its column. -/
def unitKey (y : SKey.Idx → EReal) (b : Fin 2) (c : Fin 512) (n : Fin 9216) : EReal :=
  Ideal.div (y (ix3 b c n)) (max (Ideal.sqrt (sqNorm y b n)) clamp)

/-- The keys with every column scaled to unit length. -/
def normalize (y : SKey.Idx → EReal) : SKey.Idx → EReal := fun j => unitKey y (j 0) (j 1) (j 2)

theorem normalize_apply (y : SKey.Idx → EReal) (b : Fin 2) (c : Fin 512) (n : Fin 9216) :
    normalize y (ix3 b c n) = unitKey y b c n := rfl

/-- The inner product over the channels of columns `i` and `j` of batch `b`. -/
def gram (k : SKey.Idx → EReal) (b : Fin 2) (i j : Fin 9216) : EReal :=
  ∑ c : Fin 512, k (ix3 b c i) * k (ix3 b c j)

/-- The sum of the absolute values of row `i` of batch `b`'s inner products. -/
def rowL1 (k : SKey.Idx → EReal) (b : Fin 2) (i : Fin 9216) : EReal :=
  ∑ j : Fin 9216, max (gram k b i j) (-(gram k b i j))

/-- Inner product `(b, i, j)` divided by the clamped absolute sum of its row. -/
def affinityAt (k : SKey.Idx → EReal) (b : Fin 2) (i j : Fin 9216) : EReal :=
  Ideal.div (gram k b i j) (max (rowL1 k b i) clamp)

/-- The row-normalized affinity matrix of the keys `k`. -/
def affinity (k : SKey.Idx → EReal) : SSim.Idx → EReal := fun o => affinityAt k (o 0) (o 1) (o 2)

theorem affinity_apply (k : SKey.Idx → EReal) (b : Fin 2) (i j : Fin 9216) :
    affinity k (ix3 b i j) = affinityAt k b i j := rfl

end Cert.SelfAffinity

end
-- ==== Proof.Payloads.lean ====
/-
  The values the two kernel bodies store, read at an index, over the extended reals.

  The first body holds a `[1, 512, 1536]` block of keys and stores, at `(0, c, n)`, the entry `(0, c, n)` divided by the
  Euclidean length of the block's column `n`, the length clamped below by the small positive constant `clamp`
  (`normalize_block`). The second holds a `[1, 512, 256]` and a `[1, 512, 9216]` block of normalized keys and stores, at
  `(0, i, j)`, the inner product over the 512 channels of column `i` of the first and column `j` of the second, divided by
  the sum over `j'` of the absolute values of row `i`'s inner products, clamped below by the same constant
  (`affinity_block`).

  Each proof walks the body's operations from the stored value inwards. The operations that act entry by entry (product,
  quotient, maximum, square root, absolute value, the change of format, a constant) read through definitionally. The
  others get one lemma each at coordinates: dropping or adding a unit axis and repeating a row or a column (the forms for
  a sum that keeps its axis as a column are proved here), the sum of a matrix over one axis as a `Fin`-indexed sum, and
  the matrix product contracting the first axis of both operands as the sum over that axis of the products.
-/
import proofs.«102274_j46385646797197_1_alg».proof.Proof.Gen.KernelIdeal.Skeleton
import proofs.«102274_j46385646797197_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.SelfAffinity.Body

open Cert.KernelIdeal Idealize.ShloMosaic Idealize.ShloMosaic.ValueIdx Cert.SelfAffinity

/-! ## Layout operations of a sum that keeps its axis, read at coordinates -/

section Layout
variable {α : Type}

/-- A vector of length `a` cast to the one-column matrix `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two sums over one axis of a matrix -/

/-- The sum of a matrix over its rows (axis 0) reads, at column `n`, the sum over `c` of the entries `(c, n)`. -/
theorem sumAxis0_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (n : Fin b) :
    multiReduction (F := Ideal) .add [0] ⟨1, ![b]⟩ src 0x00000000#32 h hφ hacc (ix1 n) = ∑ c : Fin a, src (ix2 c n) := by
  refine (Ideal.multiReduction_add_single src 0x00000000#32 h hφ hacc (ix1 n)).trans ?_
  refine Finset.sum_congr rfl fun c _ => congrArg src (funext fun ax => Fin.ext ?_)
  match ax with
  | ⟨0, _⟩ => rfl
  | ⟨1, _⟩ => rfl

/-- The sum of a matrix over its columns (axis 1) reads, at row `i`, the sum over `j` of the entries `(i, j)`. -/
theorem sumAxis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction (F := Ideal) .add [1] ⟨1, ![a]⟩ src 0x00000000#32 h hφ hacc (ix1 i) = ∑ j : Fin b, src (ix2 i j) := by
  refine (Ideal.multiReduction_add_single src 0x00000000#32 h hφ hacc (ix1 i)).trans ?_
  refine Finset.sum_congr rfl fun j _ => congrArg src (funext fun ax => Fin.ext ?_)
  match ax with
  | ⟨0, _⟩ => rfl
  | ⟨1, _⟩ => rfl

/-! ## The column normalization's stored value -/

/-- The first body's stored block at `(0, c, n)`: the loaded entry `(0, c, n)` divided by the clamped Euclidean length of
    the loaded block's column `n`. -/
theorem normalize_block (x0 : Vec Ideal S1x512x1536 .f32) (c : Fin 512) (n : Fin 1536) :
    Gen.k0_pay1 (F := Ideal) x0 (ix3 (0 : Fin 1) c n)
      = Ideal.div (x0 (ix3 (0 : Fin 1) c n))
          (max (Ideal.sqrt (∑ c' : Fin 512, x0 (ix3 (0 : Fin 1) c' n) * x0 (ix3 (0 : Fin 1) c' n))) clamp) := by
  unfold Gen.k0_pay1
  -- the stored block is the quotient matrix with a unit axis put in front
  refine (shapeCast_ab_1ab_apply _ _ (0 : Fin 1) c n).trans ?_
  -- the format change is the identity and the quotient is taken entry by entry
  show Ideal.div (shapeCast S512x1536 x0 Gen.shapeCasts_S1x512x1536_S512x1536 (ix2 c n))
      (broadcastTo S512x1536 _ Gen.broadcasts_S1x1536_S512x1536 (ix2 c n)) = _
  refine congrArg₂ Ideal.div (shapeCast_1ab_ab_apply x0 _ c n) ?_
  -- the divisor is the one row of clamped lengths, repeated over the 512 rows
  refine (broadcastTo_1b_ab_apply _ _ c n).trans ?_
  show max (Ideal.sqrt (shapeCast S1x1536 _ Gen.shapeCasts_S1536_S1x1536 (ix2 (0 : Fin 1) n))) clamp = _
  refine congrArg (fun s => max (Ideal.sqrt s) clamp) ?_
  -- the row of squared lengths is the vector of column sums of the squares
  refine (shapeCast_a_1a_apply _ _ (0 : Fin 1) n).trans ?_
  refine (sumAxis0_apply _ _ _ _ n).trans ?_
  refine Finset.sum_congr rfl fun c' _ => ?_
  show shapeCast S512x1536 x0 Gen.shapeCasts_S1x512x1536_S512x1536 (ix2 c' n)
      * shapeCast S512x1536 x0 Gen.shapeCasts_S1x512x1536_S512x1536 (ix2 c' n) = _
  rw [shapeCast_1ab_ab_apply x0 _ c' n]

/-! ## The matrix product contracting the rows of both operands -/

/-- On its second axis (the one not contracted) the left operand's index is the output's row. -/
theorem colGram_lhs_1 (o : S256x9216.Idx) (t : dot_S512x256_S512x9216_S256x9216_0_0_1_1_n_n.contr.Idx) :
    (dot_S512x256_S512x9216_S256x9216_0_0_1_1_n_n.lhsIdx o t 1).val = (o 0).val := by
  unfold DotDims.lhsIdx
  rw [dif_neg (show ¬(1 : Fin S512x256.rank) ∈ dot_S512x256_S512x9216_S256x9216_0_0_1_1_n_n.lhsBatch by decide),
    dif_pos (show (1 : Fin S512x256.rank) ∈ dot_S512x256_S512x9216_S256x9216_0_0_1_1_n_n.lhsNonContracting by decide)]
  rfl

/-- On its second axis (the one not contracted) the right operand's index is the output's column. -/
theorem colGram_rhs_1 (o : S256x9216.Idx) (t : dot_S512x256_S512x9216_S256x9216_0_0_1_1_n_n.contr.Idx) :
    (dot_S512x256_S512x9216_S256x9216_0_0_1_1_n_n.rhsIdx o t 1).val = (o 1).val := by
  unfold DotDims.rhsIdx
  rw [dif_neg (show ¬(1 : Fin S512x9216.rank) ∈ dot_S512x256_S512x9216_S256x9216_0_0_1_1_n_n.rhsBatch by decide),
    dif_pos (show (1 : Fin S512x9216.rank) ∈ dot_S512x256_S512x9216_S256x9216_0_0_1_1_n_n.rhsNonContracting by decide)]
  rfl

/-- The matrix unit's product of a `[512, 256]` and a `[512, 9216]` matrix contracting the first axis of both, from a
    zero accumulator, reads at `(i, j)` the inner product of the left operand's column `i` and the right one's column `j`. -/
theorem colGram_apply (lhs : FVec Ideal S512x256 .bf16) (rhs : FVec Ideal S512x9216 .bf16) (i : Fin 256) (j : Fin 9216) :
    matmul (F := Ideal) dot_S512x256_S512x9216_S256x9216_0_0_1_1_n_n none lhs rhs (constant S256x9216 .f32 0x00000000#32) (ix2 i j)
      = ∑ c : Fin 512, lhs (ix2 c i) * rhs (ix2 c j) := by
  show FloatOps.matmul dot_S512x256_S512x9216_S256x9216_0_0_1_1_n_n none lhs rhs (constant S256x9216 .f32 0x00000000#32) (ix2 i j) = _
  rw [Ideal.matmul_constant_zero_apply, ← Equiv.sum_comp (contrEquiv1 dot_S512x256_S512x9216_S256x9216_0_0_1_1_n_n 512 rfl rfl).symm]
  refine Finset.sum_congr rfl fun c _ => ?_
  have hc := contrEquiv1_symm_val dot_S512x256_S512x9216_S256x9216_0_0_1_1_n_n 512 rfl rfl c
  have el : dot_S512x256_S512x9216_S256x9216_0_0_1_1_n_n.lhsIdx (ix2 i j)
      ((contrEquiv1 dot_S512x256_S512x9216_S256x9216_0_0_1_1_n_n 512 rfl rfl).symm c) = ix2 c i :=
    funext fun a => Fin.ext (by
      match a with
      | ⟨0, _⟩ => exact (dot_S512x256_S512x9216_S256x9216_0_0_1_1_n_n.lhsIdx_val_of_single rfl _ _).trans hc
      | ⟨1, _⟩ => exact colGram_lhs_1 _ _)
  have er : dot_S512x256_S512x9216_S256x9216_0_0_1_1_n_n.rhsIdx (ix2 i j)
      ((contrEquiv1 dot_S512x256_S512x9216_S256x9216_0_0_1_1_n_n 512 rfl rfl).symm c) = ix2 c j :=
    funext fun a => Fin.ext (by
      match a with
      | ⟨0, _⟩ => exact (dot_S512x256_S512x9216_S256x9216_0_0_1_1_n_n.rhsIdx_val_of_single rfl _ _).trans hc
      | ⟨1, _⟩ => exact colGram_rhs_1 _ _)
  rw [el, er]

/-! ## The row-normalized affinities' stored value -/

/-- The second body's stored block at `(0, i, j)`: the inner product of column `i` of the first loaded block and column `j`
    of the second, divided by the clamped sum over `j'` of the absolute values of row `i`'s inner products. -/
theorem affinity_block (q : Vec Ideal S1x512x256 .bf16) (k : Vec Ideal S1x512x9216 .bf16) (i : Fin 256) (j : Fin 9216) :
    Gen.k1_pay1 (F := Ideal) q k (ix3 (0 : Fin 1) i j)
      = Ideal.div (∑ c : Fin 512, q (ix3 (0 : Fin 1) c i) * k (ix3 (0 : Fin 1) c j))
          (max (∑ j' : Fin 9216, max (∑ c : Fin 512, q (ix3 (0 : Fin 1) c i) * k (ix3 (0 : Fin 1) c j'))
                                     (-(∑ c : Fin 512, q (ix3 (0 : Fin 1) c i) * k (ix3 (0 : Fin 1) c j')))) clamp) := by
  -- the product matrix at an entry of row `i`: the two blocks lose their unit axis, then columns `i` and `j'` are contracted
  have hg : ∀ j' : Fin 9216,
      matmul (F := Ideal) dot_S512x256_S512x9216_S256x9216_0_0_1_1_n_n none
          (shapeCast S512x256 q Gen.shapeCasts_S1x512x256_S512x256)
          (shapeCast S512x9216 k Gen.shapeCasts_S1x512x9216_S512x9216)
          (constant S256x9216 .f32 0x00000000#32) (ix2 i j')
        = ∑ c : Fin 512, q (ix3 (0 : Fin 1) c i) * k (ix3 (0 : Fin 1) c j') := fun j' =>
    (colGram_apply _ _ i j').trans (Finset.sum_congr rfl fun c _ => by
      rw [shapeCast_1ab_ab_apply q _ c i, shapeCast_1ab_ab_apply k _ c j'])
  unfold Gen.k1_pay1
  -- the stored block is the quotient matrix with a unit axis put in front
  refine (shapeCast_ab_1ab_apply _ _ (0 : Fin 1) i j).trans ?_
  -- the quotient is taken entry by entry; its numerator is the product matrix at `(i, j)`
  show Ideal.div
      (matmul (F := Ideal) dot_S512x256_S512x9216_S256x9216_0_0_1_1_n_n none
        (shapeCast S512x256 q Gen.shapeCasts_S1x512x256_S512x256)
        (shapeCast S512x9216 k Gen.shapeCasts_S1x512x9216_S512x9216)
        (constant S256x9216 .f32 0x00000000#32) (ix2 i j))
      (broadcastTo S256x9216 _ Gen.broadcasts_S256x1_S256x9216 (ix2 i j)) = _
  refine congrArg₂ Ideal.div (hg j) ?_
  -- the divisor is the one column of clamped row sums, repeated over the 9216 columns
  refine (broadcastTo_a1_ab_apply _ _ i j).trans ?_
  show max (shapeCast S256x1 _ Gen.shapeCasts_S256_S256x1 (ix2 i (0 : Fin 1))) clamp = _
  refine congrArg (fun s => max s clamp) ?_
  -- the column of row sums is the vector of sums, over the columns, of the absolute values of the products
  refine (shapeCast_a_a1_apply _ _ i (0 : Fin 1)).trans ?_
  refine (sumAxis1_apply _ _ _ _ i).trans ?_
  refine Finset.sum_congr rfl fun j' _ => ?_
  exact congrArg (fun g : EReal => max g (-g)) (hg j')

end Cert.SelfAffinity.Body

end
-- ==== Proof.KeysValue.lean ====
/-
  What the first call leaves in the key array: the specification's `normalize` of the array it found.

  The call's grid has 2 × 6 points. Point (b, s) reads the block of batch b, all 512 channels, pixels
  1536 s … 1536 s + 1535, and writes back the block at the same place of the output. A column's norm is a sum over
  the channels of that one column, and a block holds whole columns, so the block the body writes is the same block
  of the normalized array; the twelve blocks tile the array.
-/
import proofs.«102274_j46385646797197_1_alg».proof.Proof.KernelIdeal.Region0
import proofs.«102274_j46385646797197_1_alg».proof.Proof.Payloads
import proofs.«102274_j46385646797197_1_alg».proof.Proof.Spec
import Idealize.ShloMosaic.Lib.Pipeline.Value
import Idealize.ShloMosaic.Lib.ValueIdx

set_option maxRecDepth 16384

noncomputable section

namespace Cert.SelfAffinity.Keys

open Cert.KernelIdeal Cert.KernelIdeal.Gen Cert.KernelIdeal.Hand Cert.SelfAffinity Cert.SelfAffinity.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body loads and stores its block whole: the offset on every axis is zero. -/
theorem zero_offsets : (![0, 0, 0] : Fin 3 → Nat) = fun _ => 0 := funext fun a => by fin_cases a <;> rfl

/-- The block-index maps of the two windows at each of the twelve grid points: the input's block and the output's
    block sit at the same place — batch `b`, all channels, pixel block `s` — with `b ≤ 1` and `s ≤ 5`. -/
theorem idx_facts : ∀ t : Fin cfg0.N, win0_0.index t (0 : Fin 3) = win0_1.index t (0 : Fin 3)
    ∧ win0_0.index t (1 : Fin 3) = 0 ∧ win0_1.index t (1 : Fin 3) = 0
    ∧ win0_0.index t (2 : Fin 3) = win0_1.index t (2 : Fin 3)
    ∧ win0_1.index t (0 : Fin 3) ≤ 1 ∧ win0_1.index t (2 : Fin 3) ≤ 5 :=
  (by decide +kernel : ∀ t : Fin grid0.N, _)

/-- Every block position (batch `b`, pixel block `s`) is some grid point's. -/
theorem idx_onto : ∀ (b : Fin 2) (s : Fin 6), ∃ t : Fin cfg0.N, win0_1.index t = ![b.val, 0, s.val] :=
  (by decide +kernel : ∀ (b : Fin 2) (s : Fin 6), ∃ t : Fin grid0.N, win0_1.index t = ![b.val, 0, s.val])

/-- Normalizing a block that holds whole columns of `y` — batch `b`, pixels `off … off + 1535` — gives the same
    block of the normalized `y`: the norm of a column only reads that column. -/
theorem normalize_of_block (x0 : Vec Ideal S1x512x1536 .f32) (y : SKey.Idx → EReal) (b : Fin 2) (off : Nat)
    (hoff : off + 1536 ≤ 9216)
    (hx : ∀ (cc : Fin 512) (n : Fin 1536), x0 (ix3 (0 : Fin 1) cc n) = y (ix3 b cc ⟨off + n.val, by have := n.isLt; omega⟩))
    (cc : Fin 512) (n : Fin 1536) :
    k0_pay1 (F := Ideal) x0 (ix3 (0 : Fin 1) cc n) = normalize y (ix3 b cc ⟨off + n.val, by have := n.isLt; omega⟩) := by
  rw [normalize_block, normalize_apply]
  unfold unitKey sqNorm
  simp only [hx]

/-- The input block at point `t` is the block of the key array at the point's block position: entry `(0, cc, n)`
    of the block is entry `(b, cc, 1536 s + n)` of the array, `(b, 0, s)` the input window's block index. -/
theorem key_block (c : Dev nD) (t : Fin cfg0.N) (cc : Fin 512) (n : Fin 1536) (i : SKey.Idx)
    (h0 : (i 0).val = win0_0.index t (0 : Fin 3)) (h1 : (i 1).val = cc.val)
    (h2 : (i 2).val = win0_0.index t (2 : Fin 3) * 1536 + n.val) (h1' : win0_0.index t (1 : Fin 3) = 0) :
    (iblk0 V c 0 t : Vec Ideal S1x512x1536 .f32) (ix3 (0 : Fin 1) cc n) = (V c main_v0 : SKey.Idx → EReal) i := by
  unfold iblk0
  rw [View.read_apply]
  show V c main_v0 _ = V c main_v0 _
  congr 1
  funext a
  apply Fin.ext
  match a with
  | ⟨0, _⟩ => show win0_0.index t (0 : Fin 3) * 1 + 1 * 0 = (i 0).val; omega
  | ⟨1, _⟩ => show win0_0.index t (1 : Fin 3) * 512 + 1 * cc.val = (i 1).val; omega
  | ⟨2, _⟩ => show win0_0.index t (2 : Fin 3) * 1536 + 1 * n.val = (i 2).val; omega

/-- What point `t` writes back is block `t` of the normalized key array. -/
theorem flushed0_eq (c : Dev nD) (t : Fin cfg0.N) :
    (dat0 V c).flushed 1 t = ((cfg0.win 1).blk t).view.read (Elt Ideal) (normalize (V c main_v0)) := by
  show (cfg0.win 1).cut (grid0.coords t) ((dat0 V c).after 1 t) = _
  rw [after0_1]
  unfold out0_1
  rw [View.canon_unit_zero zero_offsets]
  simp only [View.ld_unit_zero (S := S1x512x1536) zero_offsets]
  obtain ⟨e0, e1, e2, e3, e4, e5⟩ := idx_facts t
  funext j
  obtain ⟨z, cc, n, rfl⟩ : ∃ (z : Fin 1) (cc : Fin 512) (n : Fin 1536), j = ix3 z cc n := ⟨j 0, j 1, j 2, eq_ix3 j⟩
  obtain rfl : z = 0 := Subsingleton.elim _ _
  have hn : n.val < 1536 := n.isLt
  have hemb : ((cfg0.win 1).blk t).view.emb (ix3 (0 : Fin 1) cc n)
      = (ix3 (⟨win0_1.index t (0 : Fin 3), by omega⟩ : Fin 2) cc (⟨win0_1.index t (2 : Fin 3) * 1536 + n.val, by omega⟩ : Fin 9216) : SKey.Idx) := by
    funext a
    apply Fin.ext
    match a with
    | ⟨0, _⟩ => show win0_1.index t (0 : Fin 3) * 1 + 1 * 0 = win0_1.index t (0 : Fin 3); omega
    | ⟨1, _⟩ => show win0_1.index t (1 : Fin 3) * 512 + 1 * cc.val = cc.val; omega
    | ⟨2, _⟩ => show win0_1.index t (2 : Fin 3) * 1536 + 1 * n.val = win0_1.index t (2 : Fin 3) * 1536 + n.val; omega
  show k0_pay1 (F := Ideal) (iblk0 V c 0 t) (ix3 (0 : Fin 1) cc n) = normalize (V c main_v0) (((cfg0.win 1).blk t).view.emb (ix3 (0 : Fin 1) cc n))
  rw [hemb]
  exact normalize_of_block (iblk0 V c 0 t) (V c main_v0) ⟨win0_1.index t (0 : Fin 3), by omega⟩ (win0_1.index t (2 : Fin 3) * 1536) (by omega)
    (fun cc' n' => key_block V c t cc' n' _ e0.symm rfl (by show win0_1.index t (2 : Fin 3) * 1536 + n'.val = win0_0.index t (2 : Fin 3) * 1536 + n'.val; omega) e1) cc n

/-- An entry of the key array is in point `t`'s block iff each coordinate is in the block's range on its axis. -/
theorem mem_blk (t : Fin cfg0.N) (i : S2x512x9216.Idx) :
    i ∈ ((cfg0.win 1).blk t).view.set ↔ ∀ a : Fin 3, win0_1.index t a * S1x512x1536.size a ≤ (i a).val ∧ (i a).val < win0_1.index t a * S1x512x1536.size a + S1x512x1536.size a := by
  show i ∈ ((View.whole main_v1).slice (win0_1.rect t)).set ↔ _
  rw [View.set_slice_whole, Rect.mem_set_unit]
  exact Iff.rfl

/-- The twelve blocks tile the key array: entry `(b, cc, p)` is in the block of the point at batch `b`, pixel
    block `p / 1536`, and every point writes its block back. -/
theorem cover (i : S2x512x9216.Idx) :
    ∃ t : Fin cfg0.N, (cfg0.win 1).flush t = true ∧ i ∈ ((cfg0.win 1).blk t).view.set := by
  have hi0 : (i 0).val < 2 := (i 0).isLt
  have hi1 : (i 1).val < 512 := (i 1).isLt
  have hi2 : (i 2).val < 9216 := (i 2).isLt
  obtain ⟨t, ht⟩ := idx_onto ⟨(i 0).val, hi0⟩ ⟨(i 2).val / 1536, by omega⟩
  have q0 : win0_1.index t (0 : Fin 3) = (i 0).val := congrFun ht 0
  have q1 : win0_1.index t (1 : Fin 3) = 0 := congrFun ht 1
  have q2 : win0_1.index t (2 : Fin 3) = (i 2).val / 1536 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 1536 ≤ (i 2).val ∧ (i 2).val < win0_1.index t (2 : Fin 3) * 1536 + 1536; omega

/-- The key array after the first call: every column of the array the call found, scaled to unit length. -/
theorem keys_final (V : (c : Dev nD) → (b : Ref sig .tc) → Buf (Elt Ideal) ((c : Thread nD τ).loc b)) (c : Dev nD) :
    (dat0 (F := Ideal) V c).arrAt 1 cfg0.N = normalize (V c main_v0) :=
  (dat0 V c).arrAt_eq_of_cover 1 (normalize (V c main_v0)) (fun t _ => flushed0_eq V c t) cover

end Cert.SelfAffinity.Keys

end
-- ==== Proof.TilesValue.lean ====
/-
  The array the second call leaves, as one function of the keys it found.

  The second call runs over 2 × 36 grid points. At the point whose block index is `(b, s)` it writes back the
  `256 × 9216` tile of rows `256 s … 256 s + 255` of batch `b`'s affinity matrix, computed from two blocks of the
  normalized keys: the `512 × 256` block of batch `b` at the pixels `256 s … 256 s + 255`, and all `512 × 9216` keys of
  batch `b`. Here: an entry of a block or of a tile sits in its array at the block index times the block size plus the
  entry's position inside the block, axis by axis, and the three windows' block indices are tied to one another at every
  grid point (`index_facts`, decided over the 72 points); so the two blocks are the parts of the keys' array the
  specification's inner products range over (`rowBlock_apply`, `batchBlock_apply`), and with the body's stored value
  at an entry (`Body.affinity_block`) the tile a point writes back is that point's block of the specification's
  `affinity` of the keys (`tile_entry`, `flushed_eq`). The tiles cover the array — row `r` of batch `b` lies in the tile
  with block index `(b, r / 256)` — and every point writes its tile back (`tiles_cover`); hence the array after the
  call is the `affinity` of the keys (`tiles_final`).
-/
import proofs.«102274_j46385646797197_1_alg».proof.Proof.KernelIdeal.Region1
import proofs.«102274_j46385646797197_1_alg».proof.Proof.Payloads
import proofs.«102274_j46385646797197_1_alg».proof.Proof.Spec
import Idealize.ShloMosaic.Lib.Pipeline.Value
import Idealize.ShloMosaic.Lib.ValueIdx

noncomputable section

namespace Cert.SelfAffinity.Tiles

open Cert.KernelIdeal Cert.KernelIdeal.Gen Cert.KernelIdeal.Hand Cert.SelfAffinity Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole block, as a constant function. -/
theorem zero3 : (![0, 0, 0] : Fin 3 → Nat) = fun _ => 0 := funext fun a => by fin_cases a <;> rfl

/-- The three windows' block indices, decided over the 72 grid points: the row block of keys is batch `b`'s block of
    pixels `s`, the whole batch of keys is batch `b`'s one block, and the tile is row block `s` of batch `b`; `b` is
    below 2 and `s` below 36. -/
theorem index_facts : ∀ t : Fin cfg1.N,
    win1_0.index t (0 : Fin 3) = win1_2.index t (0 : Fin 3)
    ∧ win1_0.index t (1 : Fin 3) = 0
    ∧ win1_0.index t (2 : Fin 3) = win1_2.index t (1 : Fin 3)
    ∧ win1_1.index t (0 : Fin 3) = win1_2.index t (0 : Fin 3)
    ∧ win1_1.index t (1 : Fin 3) = 0
    ∧ win1_1.index t (2 : Fin 3) = 0
    ∧ win1_2.index t (2 : Fin 3) = 0
    ∧ win1_2.index t (0 : Fin 3) ≤ 1
    ∧ win1_2.index t (1 : Fin 3) ≤ 35 :=
  (by decide +kernel : ∀ t : Fin grid1.N, _)

/-- Every (batch, row block) pair is some grid point's tile. -/
theorem index_onto : ∀ (b : Fin 2) (s : Fin 36), ∃ t : Fin cfg1.N, win1_2.index t = ![b.val, s.val, 0] :=
  (by decide +kernel : ∀ (b : Fin 2) (s : Fin 36), ∃ t : Fin grid1.N, win1_2.index t = ![b.val, s.val, 0])

/-! ## One entry of a tile, from the entries of its two input blocks -/

/-- If the first block holds batch `b`'s keys at the pixels `256 s … 256 s + 255` and the second holds all of batch `b`'s keys,
    the body's stored value at `(0, i, j)` is the affinity of the keys at `(b, 256 s + i, j)`. -/
theorem tile_entry (Y : SKey.Idx → EReal) (q : Vec Ideal S1x512x256 .bf16) (k : Vec Ideal S1x512x9216 .bf16)
    (b : Fin 2) (s : ℕ) (hs : s ≤ 35)
    (hq : ∀ (cc : Fin 512) (i : Fin 256), q (ix3 (0 : Fin 1) cc i) = Y (ix3 b cc ⟨256 * s + i.val, by omega⟩))
    (hk : ∀ (cc : Fin 512) (j : Fin 9216), k (ix3 (0 : Fin 1) cc j) = Y (ix3 b cc j))
    (i : Fin 256) (j : Fin 9216) :
    Gen.k1_pay1 (F := Ideal) q k (ix3 (0 : Fin 1) i j) = affinity Y (ix3 b ⟨256 * s + i.val, by omega⟩ j) := by
  rw [Body.affinity_block, affinity_apply]
  unfold affinityAt rowL1 gram
  simp only [hq, hk]

/-! ## The input blocks as parts of the keys' array -/

/-- The row block at a grid point whose tile is row block `s` of batch `b`: batch `b`'s keys at the pixels `256 s + i`. -/
theorem rowBlock_apply (c : Dev nD) (t : Fin cfg1.N) (b : Fin 2) (s : ℕ) (hs : s ≤ 35)
    (hb' : win1_2.index t (0 : Fin 3) = b.val) (hs' : win1_2.index t (1 : Fin 3) = s)
    (cc : Fin 512) (i : Fin 256) :
    (iblk1 (F := Ideal) V c 0 t : Vec Ideal S1x512x256 .bf16) (ix3 (0 : Fin 1) cc i)
      = (V c main_v1 : SKey.Idx → EReal) (ix3 b cc ⟨256 * s + i.val, by omega⟩) := by
  obtain ⟨e0, e1, e2, -⟩ := index_facts t
  unfold iblk1
  rw [View.read_apply]
  show V c main_v1 (((cfg1.win 0).blk t).view.emb (ix3 (0 : Fin 1) cc i)) = V c main_v1 _
  refine congrArg (V c main_v1) (funext fun a => Fin.ext ?_)
  match a with
  | ⟨0, _⟩ => show win1_0.index t (0 : Fin 3) * 1 + 1 * 0 = b.val; omega
  | ⟨1, _⟩ => show win1_0.index t (1 : Fin 3) * 512 + 1 * cc.val = cc.val; omega
  | ⟨2, _⟩ => show win1_0.index t (2 : Fin 3) * 256 + 1 * i.val = 256 * s + i.val; omega

/-- The whole-batch block at a grid point whose tile belongs to batch `b`: all of batch `b`'s keys. -/
theorem batchBlock_apply (c : Dev nD) (t : Fin cfg1.N) (b : Fin 2)
    (hb' : win1_2.index t (0 : Fin 3) = b.val) (cc : Fin 512) (j : Fin 9216) :
    (iblk1 (F := Ideal) V c 1 t : Vec Ideal S1x512x9216 .bf16) (ix3 (0 : Fin 1) cc j)
      = (V c main_v1 : SKey.Idx → EReal) (ix3 b cc j) := by
  obtain ⟨-, -, -, e3, e4, e5, -⟩ := index_facts t
  unfold iblk1
  rw [View.read_apply]
  show V c main_v1 (((cfg1.win 1).blk t).view.emb (ix3 (0 : Fin 1) cc j)) = V c main_v1 _
  refine congrArg (V c main_v1) (funext fun a => Fin.ext ?_)
  match a with
  | ⟨0, _⟩ => show win1_1.index t (0 : Fin 3) * 1 + 1 * 0 = b.val; omega
  | ⟨1, _⟩ => show win1_1.index t (1 : Fin 3) * 512 + 1 * cc.val = cc.val; omega
  | ⟨2, _⟩ => show win1_1.index t (2 : Fin 3) * 9216 + 1 * j.val = j.val; omega

/-! ## What a grid point writes back -/

/-- The tile a grid point writes back is that point's block of the affinity of the keys the call found. -/
theorem flushed_eq (c : Dev nD) (t : Fin cfg1.N) :
    (dat1 (F := Ideal) V c).flushed 2 t = ((cfg1.win 2).blk t).view.read (Elt Ideal) (affinity (V c main_v1)) := by
  show (cfg1.win 2).cut (grid1.coords t) ((dat1 (F := Ideal) V c).after 2 t) = _
  rw [after1_2]
  unfold out1_2
  rw [View.canon_unit_zero zero3]
  simp only [View.ld_unit_zero (S := S1x512x256) zero3, View.ld_unit_zero (S := S1x512x9216) zero3]
  obtain ⟨-, -, -, -, -, -, e6, hb, hs⟩ := index_facts t
  funext y
  have hy0 : (y 0).val < 1 := (y 0).isLt
  have hy1 : (y 1).val < 256 := (y 1).isLt
  have hy2 : (y 2).val < 9216 := (y 2).isLt
  -- the entry inside the tile, by coordinates
  have hL : (win1 2).xinj (grid1.coords t) y = ix3 (0 : Fin 1) ⟨(y 1).val, hy1⟩ ⟨(y 2).val, hy2⟩ :=
    funext fun a => Fin.ext (by
      match a with
      | ⟨0, _⟩ => show (y 0).val = 0; omega
      | ⟨1, _⟩ => rfl
      | ⟨2, _⟩ => rfl)
  -- the entry of the array the tile's entry lands on: the block index times the block size plus the entry inside
  have hR : ((cfg1.win 2).blk t).view.emb y
      = (ix3 (⟨win1_2.index t (0 : Fin 3), by omega⟩ : Fin 2)
          (⟨256 * win1_2.index t (1 : Fin 3) + (y 1).val, by omega⟩ : Fin 9216) (⟨(y 2).val, hy2⟩ : Fin 9216) : SSim.Idx) :=
    funext fun a => Fin.ext (by
      match a with
      | ⟨0, _⟩ => show win1_2.index t (0 : Fin 3) * 1 + 1 * (y 0).val = win1_2.index t (0 : Fin 3); omega
      | ⟨1, _⟩ => show win1_2.index t (1 : Fin 3) * 256 + 1 * (y 1).val = 256 * win1_2.index t (1 : Fin 3) + (y 1).val; omega
      | ⟨2, _⟩ => show win1_2.index t (2 : Fin 3) * 9216 + 1 * (y 2).val = (y 2).val; omega)
  show Gen.k1_pay1 (F := Ideal) (iblk1 V c 0 t) (iblk1 V c 1 t) ((win1 2).xinj (grid1.coords t) y)
      = affinity (V c main_v1) (((cfg1.win 2).blk t).view.emb y)
  rw [hL, hR]
  exact tile_entry (V c main_v1) _ _ ⟨win1_2.index t (0 : Fin 3), by omega⟩ (win1_2.index t (1 : Fin 3)) hs
    (rowBlock_apply V c t _ _ hs rfl rfl) (batchBlock_apply V c t _ rfl) _ _

/-! ## The tiles cover the array -/

/-- An entry of the array is in a grid point's tile iff each coordinate is in the tile's range on its axis. -/
theorem mem_tile (t : Fin cfg1.N) (i : S2x9216x9216.Idx) :
    i ∈ ((cfg1.win 2).blk t).view.set ↔ ∀ a : Fin 3, win1_2.index t a * S1x256x9216.size a ≤ (i a).val
      ∧ (i a).val < win1_2.index t a * S1x256x9216.size a + S1x256x9216.size a := by
  show i ∈ ((View.whole main_v2).slice (win1_2.rect t)).set ↔ _
  rw [View.set_slice_whole, Rect.mem_set_unit]
  exact Iff.rfl

/-- Row `r` of batch `b` lies in the tile of the grid point whose block index is `(b, r / 256, 0)`, and every point writes
    its tile back. -/
theorem tiles_cover (i : S2x9216x9216.Idx) :
    ∃ t : Fin cfg1.N, (cfg1.win 2).flush t = true ∧ i ∈ ((cfg1.win 2).blk t).view.set := by
  have hi0 : (i 0).val < 2 := (i 0).isLt
  have hi1 : (i 1).val < 9216 := (i 1).isLt
  have hi2 : (i 2).val < 9216 := (i 2).isLt
  obtain ⟨t, ht⟩ := index_onto ⟨(i 0).val, hi0⟩ ⟨(i 1).val / 256, by omega⟩
  have q0 : win1_2.index t (0 : Fin 3) = (i 0).val := congrFun ht 0
  have q1 : win1_2.index t (1 : Fin 3) = (i 1).val / 256 := congrFun ht 1
  have q2 : win1_2.index t (2 : Fin 3) = 0 := congrFun ht 2
  refine ⟨t, flush1_2 t, ?_⟩
  rw [mem_tile]
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 256 ≤ (i 1).val ∧ (i 1).val < win1_2.index t (1 : Fin 3) * 256 + 256
    omega
  | ⟨2, _⟩ =>
    show win1_2.index t (2 : Fin 3) * 9216 ≤ (i 2).val ∧ (i 2).val < win1_2.index t (2 : Fin 3) * 9216 + 9216
    omega

/-! ## The array after the call -/

/-- The array the second call's write-backs leave is the affinity of the keys the call found. -/
theorem tiles_final (c : Dev nD) :
    (dat1 (F := Ideal) V c).arrAt 2 cfg1.N = affinity (V c main_v1) :=
  (dat1 (F := Ideal) V c).arrAt_eq_of_cover 2 (affinity (V c main_v1)) (fun t _ => flushed_eq V c t) tiles_cover

end Cert.SelfAffinity.Tiles

end
-- ==== Proof.KernelValue.lean ====
/-
  The kernel program's result, over the extended reals, as one function of its argument: the row-normalized affinity
  matrix of the normalized keys, the keys being the argument flattened from batch × channel × 96 × 96 to
  batch × channel × 9216. Three links: the reshape's buffer is the flattened argument; the first call leaves the
  normalization of the array it finds; the second call leaves the affinity matrix of the keys it finds.
-/
import proofs.«102274_j46385646797197_1_alg».proof.Proof.KernelIdeal.Run
import proofs.«102274_j46385646797197_1_alg».proof.Proof.KeysValue
import proofs.«102274_j46385646797197_1_alg».proof.Proof.TilesValue
import proofs.«102274_j46385646797197_1_alg».proof.Proof.Spec
import Idealize.ShloMosaic.Lib.StableHlo.Run

set_option maxRecDepth 16384

noncomputable section

namespace Cert.SelfAffinity.Whole

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Hand Cert.SelfAffinity

variable (m : (ℓ : Loc nD τ sig) → Buf (Elt Ideal) ℓ)

/-- The first item: the buffer the first call reads holds the argument, flattened to batch × channel × pixel. -/
theorem reshaped (c : Dev nD) :
    (V1 m c main_v0 : S2x512x9216.Idx → EReal)
      = shapeCast SKey (m ((c : Thread nD τ).loc main_arg0)) Facts₀.shapeCasts_S2x512x96x96_S2x512x9216 := by
  dsimp only [V1, W1, hostOps0]
  after_results
  rfl

/-- The result array after the run is the row-normalized affinity matrix of the normalized, flattened argument: the
    second call leaves the affinity of the keys it finds, those are what the first call leaves, the normalization of
    the array it finds, and that is the flattened argument. -/
theorem kernel_value (c : Dev nD) :
    result m c = affinity (normalize (shapeCast SKey (m ((c : Thread nD τ).loc main_arg0)) Facts₀.shapeCasts_S2x512x96x96_S2x512x9216)) := by
  refine (Tiles.tiles_final (V2 m) c).trans (congrArg affinity ?_)
  refine (W2_arr m c 1).trans ?_
  refine (Keys.keys_final (V1 m) c).trans (congrArg normalize ?_)
  exact reshaped m c

end Cert.SelfAffinity.Whole

end
-- ==== Proof.RefValue.lean ====
/-
  The reference program computes the specification.

  The reference squares the input, sums the squares over the channel axis, takes the square root, clamps it below,
  divides the input by it, flattens the two pixel axes into one, forms all inner products over the channel axis,
  sums the absolute values along each row, clamps that sum below and divides each row by it. Read one entry at a time
  this is the specification: the flattening sends pixel `n` of the flat axis to row `n / 96`, column `n % 96`, and the
  column norm read there does not depend on the channel.
-/
import proofs.«102274_j46385646797197_1_alg».proof.Proof.Gen.ReferenceIdeal.Read
import proofs.«102274_j46385646797197_1_alg».proof.Proof.Spec
import Idealize.ShloMosaic.Lib.Pipeline.Value
import Idealize.ShloMosaic.Lib.ValueIdx
import Idealize.ShloMosaic.PureOps.Ideal.Laws

noncomputable section

namespace Cert.SelfAffinity.Ref

open Idealize.ShloMosaic Idealize.ShloMosaic.ValueIdx Cert.ReferenceIdeal Cert.ReferenceIdeal.Read

/-- The flat pixel `n` of channel `c'`, seen from any channel `c` of the same column: the column's sum of squares
    ranges over the same entries whichever channel asked for it. -/
theorem idx_col (b : Fin 2) (c c' : Fin 512) (n : Fin 9216) :
    idx_main_v1 (idx_main_v2 (idx_main_v6 (idx_main_v8 (ix3 b c n)))) c' = idx_main_v8 (ix3 b c' n) := by
  have hb : b.val < 2 := b.isLt
  have hc : c.val < 512 := c.isLt
  have hc' : c'.val < 512 := c'.isLt
  have hn : n.val < 9216 := n.isLt
  funext a
  apply Fin.ext
  match a with
  | ⟨0, _⟩ =>
    show ((b.val * 512 + c.val) * 9216 + n.val) / 4718592 = ((b.val * 512 + c'.val) * 9216 + n.val) / 4718592
    omega
  | ⟨1, _⟩ =>
    show c'.val = ((b.val * 512 + c'.val) * 9216 + n.val) / 9216 % 512
    omega
  | ⟨2, _⟩ =>
    show ((b.val * 512 + c.val) * 9216 + n.val) / 96 % 96 = ((b.val * 512 + c'.val) * 9216 + n.val) / 96 % 96
    omega
  | ⟨3, _⟩ =>
    show ((b.val * 512 + c.val) * 9216 + n.val) % 96 = ((b.val * 512 + c'.val) * 9216 + n.val) % 96
    omega

/-- The keys of the specification are the input with its two pixel axes flattened. -/
theorem key_read (x : S2x512x96x96.Idx → EReal) (h : S2x512x96x96.ShapeCasts SKey)
    (b : Fin 2) (c : Fin 512) (n : Fin 9216) :
    shapeCast SKey x h (ix3 b c n) = x (idx_main_v8 (ix3 b c n)) := by
  have hb : b.val < 2 := b.isLt
  have hc : c.val < 512 := c.isLt
  have hn : n.val < 9216 := n.isLt
  refine shapeCast_apply x h (ix3 b c n) (idx_main_v8 (ix3 b c n)) ?_
  rewrite [Shape.rowMajor_val_four, Shape.rowMajor_val_three]
  show ((((b.val * 512 + c.val) * 9216 + n.val) / 4718592 * 512 + ((b.val * 512 + c.val) * 9216 + n.val) / 9216 % 512) * 96 + ((b.val * 512 + c.val) * 9216 + n.val) / 96 % 96) * 96 + ((b.val * 512 + c.val) * 9216 + n.val) % 96 = (b.val * 512 + c.val) * 9216 + n.val
  omega

/-- The reshaped, normalized input is the specification's unit-length keys. -/
theorem keys_eq (x : S2x512x96x96.Idx → EReal) (h : S2x512x96x96.ShapeCasts SKey) :
    val_main_v8 (F := Ideal) x = normalize (shapeCast SKey x h) := by
  funext j
  obtain ⟨b, c, n, rfl⟩ : ∃ (b : Fin 2) (c : Fin 512) (n : Fin 9216), j = ix3 b c n := ⟨j 0, j 1, j 2, eq_ix3 j⟩
  rw [normalize_apply]
  unfold unitKey sqNorm clamp
  rw [val_main_v8_apply, val_main_v7_apply, val_main_v6_apply, val_main_v5_apply, val_main_v4_apply,
    val_main_v3_apply, val_main_v2_apply, val_main_v1_apply, val_main_cst_apply, val_main_cst_0_apply]
  simp only [val_main_v0_apply, idx_col, key_read, Ideal.hostDivf_def, Ideal.maximumf_def, Ideal.hostUnary_sqrt_def,
    Ideal.ofBits_def, Ideal.mulf_def, Ideal.ofBits_zero_f32, zero_add]

/-- The left factor of the inner product `(b, i, j)` at channel `k` is the key at `(b, k, i)`. -/
theorem lidx_eq (b : Fin 2) (i j : Fin 9216) (k : Fin 512) : lidx_main_v9 (ix3 b i j) k = ix3 b k i :=
  funext fun a => by match a with | ⟨0, _⟩ => rfl | ⟨1, _⟩ => rfl | ⟨2, _⟩ => rfl

/-- The right factor of the inner product `(b, i, j)` at channel `k` is the key at `(b, k, j)`. -/
theorem ridx_eq (b : Fin 2) (i j : Fin 9216) (k : Fin 512) : ridx_main_v9 (ix3 b i j) k = ix3 b k j :=
  funext fun a => by match a with | ⟨0, _⟩ => rfl | ⟨1, _⟩ => rfl | ⟨2, _⟩ => rfl

/-- The row sum that divides entry `(b, i, j)` runs over row `i` of batch `b`. -/
theorem row_eq (b : Fin 2) (i j j' : Fin 9216) :
    idx_main_v11 (idx_main_v12 (idx_main_v15 (ix3 b i j))) j' = ix3 b i j' :=
  funext fun a => by match a with | ⟨0, _⟩ => rfl | ⟨1, _⟩ => rfl | ⟨2, _⟩ => rfl

/-- The reference's contraction over the channels is the inner product of two columns of its keys. -/
theorem gram_eq (x : S2x512x96x96.Idx → EReal) (b : Fin 2) (i j : Fin 9216) :
    val_main_v9 (F := Ideal) x (ix3 b i j) = gram (val_main_v8 (F := Ideal) x) b i j := by
  rw [val_main_v9_apply]
  unfold gram
  refine Finset.sum_congr rfl fun k _ => ?_
  rw [lidx_eq, ridx_eq]

/-- The sum that divides entry `(b, i, j)`: the absolute values of the inner products of row `i` of batch `b`,
    added up from zero. It does not depend on `j`. -/
theorem rowL1_eq (x : S2x512x96x96.Idx → EReal) (b : Fin 2) (i j : Fin 9216) :
    val_main_v11 (F := Ideal) x (idx_main_v12 (idx_main_v15 (ix3 b i j))) = rowL1 (val_main_v8 (F := Ideal) x) b i := by
  rw [val_main_v11_apply, val_main_cst_1_apply]
  unfold rowL1
  rw [Ideal.ofBits_def, Ideal.ofBits_zero_f32, zero_add]
  refine Finset.sum_congr rfl fun k _ => ?_
  rw [row_eq, val_main_v10_apply, gram_eq, Ideal.hostAbsf_def, Ideal.absf_def]

/-- The reference's result, one entry at a time, is the row-normalized inner product of its keys. -/
theorem affinity_read (x : S2x512x96x96.Idx → EReal) (b : Fin 2) (i j : Fin 9216) :
    val_main_v16 (F := Ideal) x (ix3 b i j) = affinityAt (val_main_v8 (F := Ideal) x) b i j := by
  unfold affinityAt clamp
  rw [val_main_v16_apply, val_main_v15_apply, val_main_v14_apply, val_main_v13_apply, val_main_v12_apply,
    val_main_cst_2_apply, rowL1_eq, gram_eq, Ideal.hostDivf_def, Ideal.maximumf_def, Ideal.ofBits_def]

/-- The reference computes the specification: the row-normalized affinities of the unit-length keys. -/
theorem reference_eq (x : Cert.ReferenceIdeal.S2x512x96x96.Idx → EReal)
    (h : Cert.ReferenceIdeal.S2x512x96x96.ShapeCasts Cert.SelfAffinity.SKey) :
    Cert.ReferenceIdeal.Read.val_main_v16 (F := Ideal) x
      = Cert.SelfAffinity.affinity (Cert.SelfAffinity.normalize (shapeCast Cert.SelfAffinity.SKey x h)) := by
  rw [← keys_eq x h]
  funext o
  obtain ⟨b, i, j, rfl⟩ : ∃ (b : Fin 2) (i j : Fin 9216), o = ix3 b i j := ⟨o 0, o 1, o 2, eq_ix3 o⟩
  exact (affinity_read x b i j).trans (affinity_apply _ b i j).symm

end Cert.SelfAffinity.Ref

end
-- ==== Proof.lean ====
/-
  The certificate of the self-affinity kernel against its reference.

  Both programs take x : 2 × 512 × 96 × 96 and return a 2 × 9216 × 9216 array. With the 96 × 96 image flattened to
  9216 pixels, each pixel's column of 512 channel values is divided by its Euclidean length (clamped below by a small
  positive constant); the affinity of pixels i and j of one batch is the inner product of their normalized columns;
  and each row of affinities is divided by the sum of the absolute values of its entries (clamped below likewise).
  The reference does this with whole-array operations. The kernel program reshapes the argument and runs two pipelined
  calls: the first normalizes the columns, 1536 pixels at a time; the second computes a tile of 256 rows of the
  affinity matrix at a time from a block of 256 columns and all the columns of the batch, and normalizes the tile's rows.

  Over the extended reals the two results are equal index by index, with no appeal to finiteness: the sums are the
  same sums, and the square root, maximum, absolute value and quotient are the same functions on both sides; rounding
  the keys to half precision between the calls is the identity there. The three frames — each program runs to the end,
  faults nowhere, and leaves its argument unchanged — come from the same runs. The idealization rewrote nothing.
-/
import proofs.«102274_j46385646797197_1_alg».proof.Defs
import proofs.«102274_j46385646797197_1_alg».proof.Proof.Gen.Kernel
import proofs.«102274_j46385646797197_1_alg».proof.Proof.Gen.Kernel.Skeleton
import proofs.«102274_j46385646797197_1_alg».proof.Proof.Gen.Kernel.Launch
import proofs.«102274_j46385646797197_1_alg».proof.Proof.Gen.Kernel.Regions
import proofs.«102274_j46385646797197_1_alg».proof.Proof.Gen.Kernel.Points
import proofs.«102274_j46385646797197_1_alg».proof.Proof.Gen.KernelIdeal
import proofs.«102274_j46385646797197_1_alg».proof.Proof.Gen.KernelIdeal.Skeleton
import proofs.«102274_j46385646797197_1_alg».proof.Proof.Gen.KernelIdeal.Launch
import proofs.«102274_j46385646797197_1_alg».proof.Proof.Gen.KernelIdeal.Regions
import proofs.«102274_j46385646797197_1_alg».proof.Proof.Gen.KernelIdeal.Points
import proofs.«102274_j46385646797197_1_alg».proof.Proof.Gen.ReferenceIdeal
import proofs.«102274_j46385646797197_1_alg».proof.Proof.Gen.ReferenceIdeal.Run
import proofs.«102274_j46385646797197_1_alg».proof.Proof.Gen.ReferenceIdeal.Read
import proofs.«102274_j46385646797197_1_alg».proof.Proof.Gen.Pre_finite_inputs
import proofs.«102274_j46385646797197_1_alg».proof.Proof.Kernel.Run
import proofs.«102274_j46385646797197_1_alg».proof.Proof.KernelIdeal.Run
import proofs.«102274_j46385646797197_1_alg».proof.Proof.KernelValue
import proofs.«102274_j46385646797197_1_alg».proof.Proof.RefValue
import Idealize.ShloMosaic.Adequacy
import Idealize.ShloMosaic.Init

noncomputable section

namespace Cert.Proof

open Idealize.ShloMosaic Idealize.SL.Sem Cert.SelfAffinity

/-- The word-level program runs to the end and leaves its argument as launched. -/
theorem frame_kernel : Cert.frame_Kernel := fun m ρ _ => Cert.Kernel.Hand.frame m ρ
/-- So does the program read at the extended reals. -/
theorem frame_kernelIdeal : Cert.frame_KernelIdeal := fun m ρ _ => Cert.KernelIdeal.Hand.frame m ρ
/-- The reference has no call: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)
/-- The idealization rewrote nothing. -/
theorem preserves : Cert.preserves_Kernel_KernelIdeal := trivial

/-- From memories agreeing on the argument both programs end with the result at the row-normalized affinity matrix of
    the normalized, flattened argument. -/
theorem algebraic : Cert.algebraic_KernelIdeal_ReferenceIdeal := by
  intro m ρ m' ρ' _ hagree
  refine ⟨fun c => affinity (normalize (shapeCast SKey
      (m ((c.tc : Thread Cert.KernelIdeal.nD Cert.KernelIdeal.τ).loc Cert.KernelIdeal.main_arg0))
      Cert.KernelIdeal.Facts₀.shapeCasts_S2x512x96x96_S2x512x9216)), ?_, ?_⟩
  · exact (θ_run Cert.KernelIdeal.defs _ _).mono
      (fun _ h c => ⟨(h c).1.trans (Cert.SelfAffinity.Whole.kernel_value m c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq,
      Cert.SelfAffinity.Ref.reference_eq _ Cert.KernelIdeal.Facts₀.shapeCasts_S2x512x96x96_S2x512x9216, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
